-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S2x800000 : Shape := ⟨2, ![2, 800000]⟩
abbrev S800000 : Shape := ⟨1, ![800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x50000x64 .f32) (main_arg1 : IVec S2x800000 32) (main_arg2 : FVec F S800000 .f32) (main_arg3 : FVec F S64x256 .f32) (main_arg4 : FVec F S256 .f32) (main_arg5 : FVec F S256x64 .f32) (main_arg6 : FVec F S64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S4x50000x64 : Shape := ⟨3, ![4, 50000, 64]⟩
abbrev S2x800000 : Shape := ⟨2, ![2, 800000]⟩
abbrev S800000 : Shape := ⟨1, ![800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S50000x4x64 : Shape := ⟨3, ![50000, 4, 64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S200000x64 : Shape := ⟨2, ![200000, 64]⟩
abbrev S1x256 : Shape := ⟨2, ![1, 256]⟩
abbrev S1x64 : Shape := ⟨2, ![1, 64]⟩
abbrev S8000x64 : Shape := ⟨2, ![8000, 64]⟩
abbrev S4x2000x64 : Shape := ⟨3, ![4, 2000, 64]⟩
abbrev S8000x256 : Shape := ⟨2, ![8000, 256]⟩
abbrev S2000x4x64 : Shape := ⟨3, ![2000, 4, 64]⟩

abbrev nBuf : Space → Nat
  | .hbm => 36
  | .vmem => 8
  | .smem => 0
  | _ => 0

abbrev bufTy : (tb : Table) → Fin (tcTables nBuf tb) → BufTy
  | .hbm, ⟨0, _⟩ => ⟨S4x50000x64, .f32⟩
  | .hbm, ⟨1, _⟩ => ⟨S2x800000, .i32⟩
  | .hbm, ⟨2, _⟩ => ⟨S800000, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x4x64, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S200000x64, .f32⟩
  | .hbm, ⟨30, _⟩ => ⟨S200000x64, .bf16⟩
  | .hbm, ⟨31, _⟩ => ⟨S64x256, .bf16⟩
  | .hbm, ⟨32, _⟩ => ⟨S256x64, .bf16⟩
  | .hbm, ⟨33, _⟩ => ⟨S1x256, .f32⟩
  | .hbm, ⟨34, _⟩ => ⟨S1x64, .f32⟩
  | .hbm, ⟨35, _⟩ => ⟨S4x50000x64, .f32⟩
  | .local _ .vmem, ⟨0, _⟩ => ⟨S8000x64, .bf16⟩
  | .local _ .vmem, ⟨1, _⟩ => ⟨S8000x64, .bf16⟩
  | .local _ .vmem, ⟨2, _⟩ => ⟨S64x256, .bf16⟩
  | .local _ .vmem, ⟨3, _⟩ => ⟨S1x256, .f32⟩
  | .local _ .vmem, ⟨4, _⟩ => ⟨S256x64, .bf16⟩
  | .local _ .vmem, ⟨5, _⟩ => ⟨S1x64, .f32⟩
  | .local _ .vmem, ⟨6, _⟩ => ⟨S4x2000x64, .f32⟩
  | .local _ .vmem, ⟨7, _⟩ => ⟨S4x2000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S4x50000x64_S50000x4x64_1_0_2 : S4x50000x64.Transposes [1, 0, 2] S50000x4x64
  shapeCasts_S50000x4x64_S50000x256 : S50000x4x64.ShapeCasts S50000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S200000x64 : S50000x256.ShapeCasts S200000x64
  bitsLt_bf16_f32 : FTy.bits .bf16 < FTy.bits .f32
  shapeCasts_S256_S1x256 : S256.ShapeCasts S1x256
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  shapeCasts_S8000x64_S2000x4x64 : S8000x64.ShapeCasts S2000x4x64
  transposes_S2000x4x64_p1_0_2_S4x2000x64 : S2000x4x64.Transposes [1, 0, 2] S4x2000x64
  inb_S4x2000x64_S4x2000x64_0_0_0 : ∀ a, (![0, 0, 0] : Fin 3 → Nat) a + S4x2000x64.size a ≤ S4x2000x64.size a
  h_S4x2000x64 : 0 < S4x2000x64.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S8000x64_S64x256_S8000x256_1_0_0_1_n_n_wf : DotDims.WF S8000x64 S64x256 S8000x256 [1] [0] [0] [1] [] []
  dot_S8000x256_S256x64_S8000x64_1_0_0_1_n_n_wf : DotDims.WF S8000x256 S256x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .bf16 = 32 ∨ (Rect.block (s := S200000x64) S8000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x2000x64.size a ≤ S4x50000x64.size a
  hwx0_5 : ∀ i : grid0.Coords, EltTy.bits .f32 = 32 ∨ (Rect.block (s := S4x50000x64) S4x2000x64.size (cc0_transform_5 i) (hinb0_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def dot_S8000x256_S256x64_S8000x64_1_0_0_1_n_n : DotDims S8000x256 S256x64 S8000x64 where
  lhsContracting := [1]
  rhsContracting := [0]
  lhsNonContracting := [0]
  rhsNonContracting := [1]
  lhsBatch := []
  rhsBatch := []
  wf := dot_S8000x256_S256x64_S8000x64_1_0_0_1_n_n_wf

abbrev win0_0 : Pipeline.Window sig grid0 :=
  Pipeline.Window.ofSpec (Memref.whole main_v20) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4x2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S2x800000 : Shape := ⟨2, ![2, 800000]⟩
abbrev S800000 : Shape := ⟨1, ![800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S50000x4x64 : Shape := ⟨3, ![50000, 4, 64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S4x50000x256 : Shape := ⟨3, ![4, 50000, 256]⟩
abbrev S1x1x256 : Shape := ⟨3, ![1, 1, 256]⟩
abbrev S1x1x64 : Shape := ⟨3, ![1, 1, 64]⟩

abbrev nBuf : Space → Nat
  | .hbm => 42
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S2x800000, .i32⟩
  | .hbm, ⟨2, _⟩ => ⟨S800000, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x4x64, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S50000x4x64, .f32⟩
  | .hbm, ⟨30, _⟩ => ⟨S4x50000x64, .f32⟩
  | .hbm, ⟨31, _⟩ => ⟨S4x50000x256, .f32⟩
  | .hbm, ⟨32, _⟩ => ⟨S1x1x256, .f32⟩
  | .hbm, ⟨33, _⟩ => ⟨S4x50000x256, .f32⟩
  | .hbm, ⟨34, _⟩ => ⟨S4x50000x256, .f32⟩
  | .hbm, ⟨35, _⟩ => ⟨S_, .f32⟩
  | .hbm, ⟨36, _⟩ => ⟨S4x50000x256, .f32⟩
  | .hbm, ⟨37, _⟩ => ⟨S4x50000x256, .f32⟩
  | .hbm, ⟨38, _⟩ => ⟨S4x50000x64, .f32⟩
  | .hbm, ⟨39, _⟩ => ⟨S1x1x64, .f32⟩
  | .hbm, ⟨40, _⟩ => ⟨S4x50000x64, .f32⟩
  | .hbm, ⟨41, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S4x50000x64_S50000x4x64_1_0_2 : S4x50000x64.Transposes [1, 0, 2] S50000x4x64
  shapeCasts_S50000x4x64_S50000x256 : S50000x4x64.ShapeCasts S50000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x4x64 : S50000x256.ShapeCasts S50000x4x64
  transposes_S50000x4x64_S4x50000x64_1_0_2 : S50000x4x64.Transposes [1, 0, 2] S4x50000x64
  bcast_S256_S1x1x256_2 : S256.BroadcastsInDim S1x1x256 (![2] : Fin 1 → Fin S1x1x256.rank)
  bcast_S1x1x256_S4x50000x256_0_1_2 : S1x1x256.BroadcastsInDim S4x50000x256 (![0, 1, 2] : Fin 3 → Fin S4x50000x256.rank)
  bcast_S_S4x50000x256 : S_.BroadcastsInDim S4x50000x256 (![] : Fin 0 → Fin S4x50000x256.rank)
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S4x50000x64_S64x256_S4x50000x256_2_0_01_1_n_n_wf : DotDims.WF S4x50000x64 S64x256 S4x50000x256 [2] [0] [0, 1] [1] [] []
  dot_S4x50000x256_S256x64_S4x50000x64_2_0_01_1_n_n_wf : DotDims.WF S4x50000x256 S256x64 S4x50000x64 [2] [0] [0, 1] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S4x50000x64_S64x256_S4x50000x256_2_0_01_1_n_n : DotDims S4x50000x64 S64x256 S4x50000x256 where
  lhsContracting := [2]
  rhsContracting := [0]
  lhsNonContracting := [0, 1]
  rhsNonContracting := [1]
  lhsBatch := []
  rhsBatch := []
  wf := dot_S4x50000x64_S64x256_S4x50000x256_2_0_01_1_n_n_wf
def dot_S4x50000x256_S256x64_S4x50000x64_2_0_01_1_n_n : DotDims S4x50000x256 S256x64 S4x50000x64 where
  lhsContracting := [2]
  rhsContracting := [0]
  lhsNonContracting := [0, 1]
  rhsNonContracting := [1]
  lhsBatch := []
  rhsBatch := []
  wf := dot_S4x50000x256_S256x64_S4x50000x64_2_0_01_1_n_n_wf

class Facts : Prop extends Facts₀ where

variable [Facts]
-- ==== Proof.MlpSpec.lean ====
/-
  The function both programs compute, index by index, on the extended reals.

  Let `y` be the [50000, 256] array the host's scatter-add leaves: row `n` holds node `n`'s mixed features, the 64
  channels of batch `b` at columns `64 b, …, 64 b + 63`. Both programs apply the same two-layer perceptron to the
  64 channels of every (batch, node) pair:

      hidden b n h = max (Σ_c y[n, 64 b + c] · W1[c, h] + b1[h]) 0
      out    b n o = Σ_h hidden b n h · W2[h, o] + b2[o].

  They differ only in how they walk the pairs: one flattens (n, b) to the row 4 n + b of a [200000, 64] array and
  handles 8000 such rows at a time, the other transposes to [4, 50000, 64] first. The sums are finite sums in a
  commutative monoid, so no order or grouping matters, and nothing here asks the entries to be finite.
  The zero of the rectifier is kept as the word both programs print; it is never evaluated.
-/
import Idealize.ShloMosaic.PureOps.Ideal
import Idealize.ShloMosaic.Lib.ValueIdx

noncomputable section

open scoped BigOperators

namespace Cert.GraphMlp

open Idealize.ShloMosaic Idealize.ShloMosaic.ValueIdx

/-- The column of `y` that holds channel `c` of batch `b`. -/
def col (b : Fin 4) (c : Fin 64) : Fin 256 := ⟨b.val * 64 + c.val, by have := b.isLt; have := c.isLt; omega⟩

theorem col_val (b : Fin 4) (c : Fin 64) : (col b c).val = b.val * 64 + c.val := rfl

/-- The hidden layer at batch `b`, node `n`, unit `h`. -/
def hidden (y : (⟨2, ![50000, 256]⟩ : Shape).Idx → EReal) (W1 : (⟨2, ![64, 256]⟩ : Shape).Idx → EReal)
    (b1 : (⟨1, ![256]⟩ : Shape).Idx → EReal) (b : Fin 4) (n : Fin 50000) (h : Fin 256) : EReal :=
  max ((∑ c : Fin 64, y (ix2 n (col b c)) * W1 (ix2 c h)) + b1 (ix1 h)) (Ideal.ofBits .f32 0x00000000#32)

/-- The output at batch `b`, node `n`, channel `o`. -/
def outAt (y : (⟨2, ![50000, 256]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (b : Fin 4) (n : Fin 50000) (o : Fin 64) : EReal :=
  (∑ h : Fin 256, hidden y W1 b1 b n h * W2 (ix2 h o)) + b2 (ix1 o)

/-- The whole [4, 50000, 64] result as one function of `y` and the four parameter arrays. -/
def out (y : (⟨2, ![50000, 256]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨3, ![4, 50000, 64]⟩ : Shape).Idx → EReal :=
  fun i => outAt y W1 b1 W2 b2 (i 0) (i 1) (i 2)

theorem out_ix3 (y : (⟨2, ![50000, 256]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (b : Fin 4) (n : Fin 50000) (o : Fin 64) :
    out y W1 b1 W2 b2 (ix3 b n o) = outAt y W1 b1 W2 b2 b n o := rfl

end Cert.GraphMlp

end
-- ==== Proof.RefMlp.lean ====
/-
  The reference's result is the perceptron of the specification applied to its own scatter-add result.

  Read one operation at a time, the reference's element at (b, n, o) is the second product's sum over the 256 hidden
  units of  max (first product + b1[h]) 0 · W2[h, o],  plus b2[o]; the first product's left operand is the scatter
  result reshaped to [50000, 4, 64] and transposed to [4, 50000, 64], whose element at (b, n, c) sits at row-major
  position (4 n + b) · 64 + c of the [50000, 256] array: row n, column 64 b + c. The proof only names these indices.
-/
import proofs.«101964_j44951127720359_2_alg».proof.Proof.Gen.ReferenceIdeal.Read
import proofs.«101964_j44951127720359_2_alg».proof.Proof.MlpSpec

noncomputable section

open scoped BigOperators

namespace Cert.ReferenceIdeal.RefValue

open Cert.ReferenceIdeal Cert.ReferenceIdeal.Read Idealize.ShloMosaic Idealize.ShloMosaic.ValueIdx Cert.GraphMlp

/-- Through the transpose and the reshape, the first product's left factor at (b, n, c) is the scatter result at
    row n, column 64 b + c. -/
theorem mixed_index (b : Fin 4) (n : Fin 50000) (o : Fin 64) (h : Fin 256) (c : Fin 64) :
    idx_main_v19 (idx_main_v20 (lidx_main_v21 (lidx_main_v26 (ix3 b n o) h) c)) = ix2 n (col b c) :=
  funext fun a => Fin.ext (by
    have hb : b.val < 4 := b.isLt
    have hn : n.val < 50000 := n.isLt
    have hc : c.val < 64 := c.isLt
    match a with
    | ⟨0, _⟩ => show ((n.val * 4 + b.val) * 64 + c.val) / 256 = n.val; omega
    | ⟨1, _⟩ => show ((n.val * 4 + b.val) * 64 + c.val) % 256 = b.val * 64 + c.val; omega)

/-- The first product's right factor is W1 at (c, h). -/
theorem w1_index (b : Fin 4) (n : Fin 50000) (o : Fin 64) (h : Fin 256) (c : Fin 64) :
    ridx_main_v21 (lidx_main_v26 (ix3 b n o) h) c = ix2 c h :=
  funext fun a => Fin.ext (by match a with | ⟨0, _⟩ => rfl | ⟨1, _⟩ => rfl)

/-- The first bias, broadcast twice, is b1 at h. -/
theorem b1_index (b : Fin 4) (n : Fin 50000) (o : Fin 64) (h : Fin 256) :
    idx_main_v22 (idx_main_v23 (lidx_main_v26 (ix3 b n o) h)) = ix1 h :=
  funext fun a => Fin.ext (by match a with | ⟨0, _⟩ => rfl)

/-- The second product's right factor is W2 at (h, o). -/
theorem w2_index (b : Fin 4) (n : Fin 50000) (o : Fin 64) (h : Fin 256) : ridx_main_v26 (ix3 b n o) h = ix2 h o :=
  funext fun a => Fin.ext (by match a with | ⟨0, _⟩ => rfl | ⟨1, _⟩ => rfl)

/-- The second bias, broadcast twice, is b2 at o. -/
theorem b2_index (b : Fin 4) (n : Fin 50000) (o : Fin 64) : idx_main_v27 (idx_main_v28 (ix3 b n o)) = ix1 o :=
  funext fun a => Fin.ext (by match a with | ⟨0, _⟩ => rfl)

/-- The first product's left factor at (b, n, c), read through the transpose and the reshape, is the scatter-add result
    at row n, column 64 b + c. -/
theorem mixed_eq (x0 : (⟨S4x50000x64, .f32⟩ : BufTy).Contents (Elt Ideal)) (x1 : (⟨S2x800000, .i32⟩ : BufTy).Contents (Elt Ideal))
    (x2 : (⟨S800000, .f32⟩ : BufTy).Contents (Elt Ideal))
    (b : Fin 4) (n : Fin 50000) (o : Fin 64) (h : Fin 256) (c : Fin 64) :
    val_main_v20 (F := Ideal) x0 x1 x2 (lidx_main_v21 (lidx_main_v26 (ix3 b n o) h) c)
      = val_main_v18 (F := Ideal) x0 x1 x2 (ix2 n (col b c)) := by
  rw [val_main_v20_apply, val_main_v19_apply, mixed_index]

/-- The rectified first layer at (b, n, h) is the specification's hidden unit. The scatter-add result is made an opaque
    array before the two sides are compared: it is the same term on both, and is never opened. -/
theorem hidden_eq (x0 : (⟨S4x50000x64, .f32⟩ : BufTy).Contents (Elt Ideal)) (x1 : (⟨S2x800000, .i32⟩ : BufTy).Contents (Elt Ideal))
    (x2 : (⟨S800000, .f32⟩ : BufTy).Contents (Elt Ideal))
    (x3 : (⟨S64x256, .f32⟩ : BufTy).Contents (Elt Ideal)) (x4 : (⟨S256, .f32⟩ : BufTy).Contents (Elt Ideal))
    (b : Fin 4) (n : Fin 50000) (o : Fin 64) (h : Fin 256) :
    val_main_v25 (F := Ideal) x0 x1 x2 x3 x4 (lidx_main_v26 (ix3 b n o) h)
      = hidden (val_main_v18 (F := Ideal) x0 x1 x2) x3 x4 b n h := by
  rw [val_main_v25_apply, val_main_v24_apply, val_main_v21_apply, val_main_v23_apply, val_main_v22_apply, b1_index,
    val_main_call0_v0_apply, val_main_call0_cst_apply]
  simp only [mixed_eq, w1_index]
  generalize val_main_v18 (F := Ideal) x0 x1 x2 = y
  rfl

/-- The reference's result is `out` of its scatter-add result and the four parameter arrays. -/
theorem result_eq (x0 : (⟨S4x50000x64, .f32⟩ : BufTy).Contents (Elt Ideal)) (x1 : (⟨S2x800000, .i32⟩ : BufTy).Contents (Elt Ideal))
    (x2 : (⟨S800000, .f32⟩ : BufTy).Contents (Elt Ideal))
    (x3 : (⟨S64x256, .f32⟩ : BufTy).Contents (Elt Ideal)) (x4 : (⟨S256, .f32⟩ : BufTy).Contents (Elt Ideal))
    (x5 : (⟨S256x64, .f32⟩ : BufTy).Contents (Elt Ideal)) (x6 : (⟨S64, .f32⟩ : BufTy).Contents (Elt Ideal)) :
    val_main_v29 (F := Ideal) x0 x1 x2 x3 x4 x5 x6 = out (val_main_v18 (F := Ideal) x0 x1 x2) x3 x4 x5 x6 := by
  funext i
  obtain ⟨b, n, o, rfl⟩ : ∃ (b : Fin 4) (n : Fin 50000) (o : Fin 64), i = ix3 b n o := ⟨i 0, i 1, i 2, eq_ix3 i⟩
  rw [val_main_v29_apply, val_main_v26_apply, val_main_v28_apply, val_main_v27_apply, b2_index, out_ix3]
  simp only [hidden_eq, w2_index]
  generalize val_main_v18 (F := Ideal) x0 x1 x2 = y
  rfl

end Cert.ReferenceIdeal.RefValue

end
-- ==== Proof.MlpHost.lean ====
/-
  What the kernel's host operations leave in the five arrays its grid reads.

  Before the grid starts, the host gathers rows of the transposed input by the column indices (negative indices
  wrapped by the node count), scales them by the edge values and scatter-adds them into a zero [50000, 256] array by the
  row indices: `mixed`, one term of the three arguments it depends on, which is named here and never opened — the
  reference builds the very same term. The grid's first array is `mixed` reshaped to [200000, 64] and changed to a
  16-bit format (the identity on the extended reals); the others are W1 and W2 with their format changed, and b1 and
  b2 as one-row matrices.
-/
import proofs.«101964_j44951127720359_2_alg».proof.Proof.Gen.KernelIdeal.Frame
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem
open Idealize.ShloMosaic.StableHlo

/-- The scatter-add result, as the host operations compute it from the node features `x0`, the edge indices `x1` and the
    edge values `x2`. -/
def mixed (x0 : (⟨S4x50000x64, .f32⟩ : BufTy).Contents (Elt Ideal)) (x1 : (⟨S2x800000, .i32⟩ : BufTy).Contents (Elt Ideal))
    (x2 : (⟨S800000, .f32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0
      (shapeCast _ (extractStridedSlice S1x800000 ![0, 0] x1 slices_S2x800000_S1x800000_0_0) shapeCasts_S1x800000_S800000))
    (mulf (broadcastInDim S800000x256 ![0, 1] bcast_S800000x1_S800000x256_0_1 (broadcastInDim S800000x1 ![0] bcast_S800000_S800000x1_0 x2))
      (Host.gather gather_S50000x256_S800000x1_S800000x256_1_0_n_n_0_1_1256
        (shapeCast _ (transpose S50000x4x64 [1, 0, 2] x0 transposes_S4x50000x64_S50000x4x64_1_0_2) shapeCasts_S50000x4x64_S50000x256)
        (broadcastInDim S800000x1 ![0] bcast_S800000_S800000x1_0
          (select
            (cmpi .slt (shapeCast _ (extractStridedSlice S1x800000 ![1, 0] x1 slices_S2x800000_S1x800000_1_0) shapeCasts_S1x800000_S800000)
              (broadcastInDim S800000 ![] bcast_S_S800000 (constantI S_ 32 0#32)))
            (addi (shapeCast _ (extractStridedSlice S1x800000 ![1, 0] x1 slices_S2x800000_S1x800000_1_0) shapeCasts_S1x800000_S800000)
              (broadcastInDim S800000 ![] bcast_S_S800000 (constantI S_ 32 50000#32)))
            (shapeCast _ (extractStridedSlice S1x800000 ![1, 0] x1 slices_S2x800000_S1x800000_1_0) shapeCasts_S1x800000_S800000)))))

variable (m : (ℓ : Loc nD τ sig) → Buf (Elt Ideal) ℓ)

set_option maxHeartbeats 2000000 in
/-- The grid's first array: `mixed` reshaped to [200000, 64], its format changed. -/
theorem V_rows (c : Dev nD) :
    (V m c main_v20 : S200000x64.Idx → EReal)
      = truncf (F := Ideal) .bf16 (shapeCast S200000x64 (mixed (m ((c : Thread nD τ).loc main_arg0)) (m ((c : Thread nD τ).loc main_arg1)) (m ((c : Thread nD τ).loc main_arg2))) shapeCasts_S50000x256_S200000x64) bitsLt_bf16_f32 := by
  dsimp only [V, hostOps0]
  after_results_simp
  rfl

/-- The grid's second array: W1, its format changed. -/
theorem V_w1 (c : Dev nD) :
    (V m c main_v21 : S64x256.Idx → EReal) = truncf (F := Ideal) .bf16 (m ((c : Thread nD τ).loc main_arg3)) bitsLt_bf16_f32 := by
  dsimp only [V, hostOps0]
  after_results

/-- The grid's third array: b1 as a one-row matrix. -/
theorem V_b1 (c : Dev nD) :
    (V m c main_v23 : S1x256.Idx → EReal) = shapeCast S1x256 (m ((c : Thread nD τ).loc main_arg4)) shapeCasts_S256_S1x256 := by
  dsimp only [V, hostOps0]
  after_results
  rfl

/-- The grid's fourth array: W2, its format changed. -/
theorem V_w2 (c : Dev nD) :
    (V m c main_v22 : S256x64.Idx → EReal) = truncf (F := Ideal) .bf16 (m ((c : Thread nD τ).loc main_arg5)) bitsLt_bf16_f32 := by
  dsimp only [V, hostOps0]
  after_results

/-- The grid's fifth array: b2 as a one-row matrix. -/
theorem V_b2 (c : Dev nD) :
    (V m c main_v24 : S1x64.Idx → EReal) = shapeCast S1x64 (m ((c : Thread nD τ).loc main_arg6)) shapeCasts_S64_S1x64 := by
  dsimp only [V, hostOps0]
  after_results
  rfl

end Cert.KernelIdeal.HostValue

end
-- ==== Proof.MlpRows.lean ====
/-
  One grid step of the kernel, read at an index.

  A step holds 8000 flat rows — 2000 nodes, each with its 4 batches, row 4 n + b for (n, b) — of 64 mixed channels.
  It multiplies them by W1 into a zero accumulator, adds b1 along the rows, rectifies, multiplies by W2 into a zero
  accumulator and adds b2: at row r and channel o,

      Σ_h max (Σ_c x[r, c] · W1[c, h] + b1[0, h]) 0 · W2[h, o] + b2[0, o].

  The [8000, 64] result is then cast to [2000, 4, 64] (row-major: (n, b, o) is row 4 n + b) and its first two axes are
  swapped, so the stored block at (b, n, o) is the value at row 4 n + b. A product into a zero accumulator is the plain
  sum of products over the one contracted axis; a change of float format is the identity on the extended reals.
-/
import proofs.«101964_j44951127720359_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-- The flat row, inside a step's 8000, of node `n` (of the step's 2000) and batch `b`. -/
def row (n : Fin 2000) (b : Fin 4) : Fin 8000 := ⟨n.val * 4 + b.val, by have := n.isLt; have := b.isLt; omega⟩

theorem row_val (n : Fin 2000) (b : Fin 4) : (row n b).val = n.val * 4 + b.val := rfl

/-! ## The two products at an index -/

theorem dot1_lhs0 (j : S8000x256.Idx) (q : dot_S8000x64_S64x256_S8000x256_1_0_0_1_n_n.contr.Idx) : (dot_S8000x64_S64x256_S8000x256_1_0_0_1_n_n.lhsIdx j q 0).val = (j 0).val := by
  unfold DotDims.lhsIdx
  rw [dif_neg (show ¬(0 : Fin S8000x64.rank) ∈ dot_S8000x64_S64x256_S8000x256_1_0_0_1_n_n.lhsBatch by decide), dif_pos (show (0 : Fin S8000x64.rank) ∈ dot_S8000x64_S64x256_S8000x256_1_0_0_1_n_n.lhsNonContracting by decide)]
  rfl
theorem dot1_lhs1 (j : S8000x256.Idx) (q : dot_S8000x64_S64x256_S8000x256_1_0_0_1_n_n.contr.Idx) : (dot_S8000x64_S64x256_S8000x256_1_0_0_1_n_n.lhsIdx j q 1).val = (q ⟨0, by decide⟩).val :=
  dot_S8000x64_S64x256_S8000x256_1_0_0_1_n_n.lhsIdx_val_of_single rfl j q
theorem dot1_rhs0 (j : S8000x256.Idx) (q : dot_S8000x64_S64x256_S8000x256_1_0_0_1_n_n.contr.Idx) : (dot_S8000x64_S64x256_S8000x256_1_0_0_1_n_n.rhsIdx j q 0).val = (q ⟨0, by decide⟩).val :=
  dot_S8000x64_S64x256_S8000x256_1_0_0_1_n_n.rhsIdx_val_of_single rfl j q
theorem dot1_rhs1 (j : S8000x256.Idx) (q : dot_S8000x64_S64x256_S8000x256_1_0_0_1_n_n.contr.Idx) : (dot_S8000x64_S64x256_S8000x256_1_0_0_1_n_n.rhsIdx j q 1).val = (j 1).val := by
  unfold DotDims.rhsIdx
  rw [dif_neg (show ¬(1 : Fin S64x256.rank) ∈ dot_S8000x64_S64x256_S8000x256_1_0_0_1_n_n.rhsBatch by decide), dif_pos (show (1 : Fin S64x256.rank) ∈ dot_S8000x64_S64x256_S8000x256_1_0_0_1_n_n.rhsNonContracting by decide)]
  rfl

/-- The first product into the zero accumulator, at row `r` and hidden unit `h`: the sum over the 64 channels. -/
theorem dot1_apply (x : FVec Ideal S8000x64 .bf16) (w : FVec Ideal S64x256 .bf16) (r : Fin 8000) (h : Fin 256) :
    matmul dot_S8000x64_S64x256_S8000x256_1_0_0_1_n_n none x w (constant (F := Ideal) S8000x256 .f32 0x00000000#32) (ix2 r h)
      = ∑ c : Fin 64, x (ix2 r c) * w (ix2 c h) := by
  simp only [matmul]
  rw [Ideal.matmul_constant_zero_apply, ← Equiv.sum_comp (contrEquiv1 dot_S8000x64_S64x256_S8000x256_1_0_0_1_n_n 64 rfl rfl).symm]
  refine Finset.sum_congr rfl fun k _ => ?_
  have hk := contrEquiv1_symm_val dot_S8000x64_S64x256_S8000x256_1_0_0_1_n_n 64 rfl rfl k
  have el : dot_S8000x64_S64x256_S8000x256_1_0_0_1_n_n.lhsIdx (ix2 r h) ((contrEquiv1 dot_S8000x64_S64x256_S8000x256_1_0_0_1_n_n 64 rfl rfl).symm k) = ix2 r k := funext fun a => Fin.ext (by
    match a with
    | ⟨0, _⟩ => exact dot1_lhs0 _ _
    | ⟨1, _⟩ => exact (dot1_lhs1 _ _).trans hk)
  have er : dot_S8000x64_S64x256_S8000x256_1_0_0_1_n_n.rhsIdx (ix2 r h) ((contrEquiv1 dot_S8000x64_S64x256_S8000x256_1_0_0_1_n_n 64 rfl rfl).symm k) = ix2 k h := funext fun a => Fin.ext (by
    match a with
    | ⟨0, _⟩ => exact (dot1_rhs0 _ _).trans hk
    | ⟨1, _⟩ => exact dot1_rhs1 _ _)
  rw [el, er]

theorem dot2_lhs0 (j : S8000x64.Idx) (q : dot_S8000x256_S256x64_S8000x64_1_0_0_1_n_n.contr.Idx) : (dot_S8000x256_S256x64_S8000x64_1_0_0_1_n_n.lhsIdx j q 0).val = (j 0).val := by
  unfold DotDims.lhsIdx
  rw [dif_neg (show ¬(0 : Fin S8000x256.rank) ∈ dot_S8000x256_S256x64_S8000x64_1_0_0_1_n_n.lhsBatch by decide), dif_pos (show (0 : Fin S8000x256.rank) ∈ dot_S8000x256_S256x64_S8000x64_1_0_0_1_n_n.lhsNonContracting by decide)]
  rfl
theorem dot2_lhs1 (j : S8000x64.Idx) (q : dot_S8000x256_S256x64_S8000x64_1_0_0_1_n_n.contr.Idx) : (dot_S8000x256_S256x64_S8000x64_1_0_0_1_n_n.lhsIdx j q 1).val = (q ⟨0, by decide⟩).val :=
  dot_S8000x256_S256x64_S8000x64_1_0_0_1_n_n.lhsIdx_val_of_single rfl j q
theorem dot2_rhs0 (j : S8000x64.Idx) (q : dot_S8000x256_S256x64_S8000x64_1_0_0_1_n_n.contr.Idx) : (dot_S8000x256_S256x64_S8000x64_1_0_0_1_n_n.rhsIdx j q 0).val = (q ⟨0, by decide⟩).val :=
  dot_S8000x256_S256x64_S8000x64_1_0_0_1_n_n.rhsIdx_val_of_single rfl j q
theorem dot2_rhs1 (j : S8000x64.Idx) (q : dot_S8000x256_S256x64_S8000x64_1_0_0_1_n_n.contr.Idx) : (dot_S8000x256_S256x64_S8000x64_1_0_0_1_n_n.rhsIdx j q 1).val = (j 1).val := by
  unfold DotDims.rhsIdx
  rw [dif_neg (show ¬(1 : Fin S256x64.rank) ∈ dot_S8000x256_S256x64_S8000x64_1_0_0_1_n_n.rhsBatch by decide), dif_pos (show (1 : Fin S256x64.rank) ∈ dot_S8000x256_S256x64_S8000x64_1_0_0_1_n_n.rhsNonContracting by decide)]
  rfl

/-- The second product into the zero accumulator, at row `r` and channel `o`: the sum over the 256 hidden units. -/
theorem dot2_apply (x : FVec Ideal S8000x256 .bf16) (w : FVec Ideal S256x64 .bf16) (r : Fin 8000) (o : Fin 64) :
    matmul dot_S8000x256_S256x64_S8000x64_1_0_0_1_n_n none x w (constant (F := Ideal) S8000x64 .f32 0x00000000#32) (ix2 r o)
      = ∑ h : Fin 256, x (ix2 r h) * w (ix2 h o) := by
  simp only [matmul]
  rw [Ideal.matmul_constant_zero_apply, ← Equiv.sum_comp (contrEquiv1 dot_S8000x256_S256x64_S8000x64_1_0_0_1_n_n 256 rfl rfl).symm]
  refine Finset.sum_congr rfl fun k _ => ?_
  have hk := contrEquiv1_symm_val dot_S8000x256_S256x64_S8000x64_1_0_0_1_n_n 256 rfl rfl k
  have el : dot_S8000x256_S256x64_S8000x64_1_0_0_1_n_n.lhsIdx (ix2 r o) ((contrEquiv1 dot_S8000x256_S256x64_S8000x64_1_0_0_1_n_n 256 rfl rfl).symm k) = ix2 r k := funext fun a => Fin.ext (by
    match a with
    | ⟨0, _⟩ => exact dot2_lhs0 _ _
    | ⟨1, _⟩ => exact (dot2_lhs1 _ _).trans hk)
  have er : dot_S8000x256_S256x64_S8000x64_1_0_0_1_n_n.rhsIdx (ix2 r o) ((contrEquiv1 dot_S8000x256_S256x64_S8000x64_1_0_0_1_n_n 256 rfl rfl).symm k) = ix2 k o := funext fun a => Fin.ext (by
    match a with
    | ⟨0, _⟩ => exact (dot2_rhs0 _ _).trans hk
    | ⟨1, _⟩ => exact dot2_rhs1 _ _)
  rw [el, er]

/-! ## The two layers at an index -/

/-- The rectified first layer at row `r`, hidden unit `h`. -/
theorem layer1_apply (x : FVec Ideal S8000x64 .bf16) (w : FVec Ideal S64x256 .bf16) (bias : FVec Ideal S1x256 .f32)
    (hb : S1x256.Broadcasts S8000x256) (r : Fin 8000) (h : Fin 256) :
    maximumf (addf (matmul dot_S8000x64_S64x256_S8000x256_1_0_0_1_n_n none x w (constant (F := Ideal) S8000x256 .f32 0x00000000#32)) (broadcastTo S8000x256 bias hb))
        (broadcast S8000x256 (Scalar.ofBits (F := Ideal) .f32 0x00000000#32)) (ix2 r h)
      = max ((∑ c : Fin 64, x (ix2 r c) * w (ix2 c h)) + bias (ix2 (0 : Fin 1) h)) (Ideal.ofBits .f32 0x00000000#32) := by
  rw [maximumf_apply, addf_apply, dot1_apply, broadcastTo_1b_ab_apply, broadcast_apply]
  rfl

/-- The second layer at row `r`, channel `o`, of any hidden array. -/
theorem layer2_apply (hid : FVec Ideal S8000x256 .bf16) (w : FVec Ideal S256x64 .bf16) (bias : FVec Ideal S1x64 .f32)
    (hb : S1x64.Broadcasts S8000x64) (r : Fin 8000) (o : Fin 64) :
    addf (matmul dot_S8000x256_S256x64_S8000x64_1_0_0_1_n_n none hid w (constant (F := Ideal) S8000x64 .f32 0x00000000#32)) (broadcastTo S8000x64 bias hb) (ix2 r o)
      = (∑ h : Fin 256, hid (ix2 r h) * w (ix2 h o)) + bias (ix2 (0 : Fin 1) o) := by
  rw [addf_apply, dot2_apply, broadcastTo_1b_ab_apply]

/-! ## The relayout: cast to [2000, 4, 64], swap the first two axes -/

/-- The stored [4, 2000, 64] block at (b, n, o) is the [8000, 64] value at row 4 n + b. -/
theorem relayout_apply (v : FVec Ideal S8000x64 .f32) (hc : S8000x64.ShapeCasts S2000x4x64)
    (ht : S2000x4x64.Transposes [1, 0, 2] S4x2000x64) (b : Fin 4) (n : Fin 2000) (o : Fin 64) :
    transpose S4x2000x64 [1, 0, 2] (shapeCast S2000x4x64 v hc) ht (ix3 b n o) = v (ix2 (row n b) o) := by
  refine (transpose_apply [1, 0, 2] _ ht (ix3 b n o) (ix3 n b o) (fun a => match a with
    | ⟨0, _⟩ => rfl
    | ⟨1, _⟩ => rfl
    | ⟨2, _⟩ => rfl)).trans ?_
  exact shapeCast_apply v hc (ix3 n b o) (ix2 (row n b) o) (by
    rw [Shape.rowMajor_val_two, Shape.rowMajor_val_three]
    show (n.val * 4 + b.val) * 64 + o.val = (n.val * 4 + b.val) * 64 + o.val
    rfl)

/-! ## The payload -/

/-- The step's stored value with its same-shape casts removed (they are the identity). -/
theorem pay_eq (x0 : FVec Ideal S8000x64 .bf16) (x1 : FVec Ideal S64x256 .bf16) (x2 : FVec Ideal S1x256 .f32)
    (x3 : FVec Ideal S256x64 .bf16) (x4 : FVec Ideal S1x64 .f32) :
    k0_pay1 (F := Ideal) x0 x1 x2 x3 x4
      = transpose S4x2000x64 [1, 0, 2] (shapeCast S2000x4x64
          (addf (matmul dot_S8000x256_S256x64_S8000x64_1_0_0_1_n_n none
              (truncf .bf16 (maximumf (addf (matmul dot_S8000x64_S64x256_S8000x256_1_0_0_1_n_n none x0 x1 (constant (F := Ideal) S8000x256 .f32 0x00000000#32))
                  (broadcastTo S8000x256 x2 broadcasts_S1x256_S8000x256))
                (broadcast S8000x256 (Scalar.ofBits (F := Ideal) .f32 0x00000000#32))) bitsLt_bf16_f32)
              x3 (constant (F := Ideal) S8000x64 .f32 0x00000000#32))
            (broadcastTo S8000x64 x4 broadcasts_S1x64_S8000x64))
          shapeCasts_S8000x64_S2000x4x64) transposes_S2000x4x64_p1_0_2_S4x2000x64 := by
  unfold k0_pay1
  simp only [shapeCast_self]

/-- The step's stored block at (b, n, o), from its five loaded blocks. -/
theorem pay_apply (x0 : FVec Ideal S8000x64 .bf16) (x1 : FVec Ideal S64x256 .bf16) (x2 : FVec Ideal S1x256 .f32)
    (x3 : FVec Ideal S256x64 .bf16) (x4 : FVec Ideal S1x64 .f32) (b : Fin 4) (n : Fin 2000) (o : Fin 64) :
    k0_pay1 (F := Ideal) x0 x1 x2 x3 x4 (ix3 b n o)
      = (∑ h : Fin 256, max ((∑ c : Fin 64, x0 (ix2 (row n b) c) * x1 (ix2 c h)) + x2 (ix2 (0 : Fin 1) h))
            (Ideal.ofBits .f32 0x00000000#32) * x3 (ix2 h o)) + x4 (ix2 (0 : Fin 1) o) := by
  rw [pay_eq, relayout_apply, layer2_apply]
  simp only [truncf_apply, layer1_apply]

end Cert.KernelIdeal.Rows

end
-- ==== Proof.MlpBlocks.lean ====
/-
  Each window's block at a grid step, as entries of the arrays the host left.

  Step t of the 25 reads rows 8000 t, …, 8000 t + 7999 of the [200000, 64] array of mixed rows and the whole of the four
  parameter arrays, and writes nodes 2000 t, …, 2000 t + 1999 of every batch of the result. A block's element sits in its
  array, on each axis, at the block index times the block's extent plus its own coordinate; the block indices are decided
  once over the 25 steps.

  Row 4 n + b of a step's block is flat row 4 (2000 t + n) + b of the array, which the reshape from [50000, 256] takes
  from row 2000 t + n, columns 64 b, …, 64 b + 63 of the scatter-add result: both positions are
  (2000 t + n) · 256 + 64 b + c in row-major order.
-/
import proofs.«101964_j44951127720359_2_alg».proof.Proof.Gen.KernelIdeal.Frame
import proofs.«101964_j44951127720359_2_alg».proof.Proof.MlpHost
import proofs.«101964_j44951127720359_2_alg».proof.Proof.MlpRows
import proofs.«101964_j44951127720359_2_alg».proof.Proof.MlpSpec
import Idealize.ShloMosaic.Lib.ValueLayout
import Idealize.ShloMosaic.Lib.Pipeline.Value

noncomputable section

namespace Cert.KernelIdeal.Blocks

open Cert.KernelIdeal Cert.KernelIdeal.Gen Cert.KernelIdeal.HostValue Cert.KernelIdeal.Rows Cert.GraphMlp
open Idealize.ShloMosaic Idealize.ShloMosaic.TcCoe Idealize.ShloMosaic.ValueIdx Idealize.SL.Sem

variable (m : (ℓ : Loc nD τ sig) → Buf (Elt Ideal) ℓ)

/-- The windows' block indices at every step: the rows and the result move with the step, the parameters stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

theorem step_lt (t : Fin cfg0.N) : t.val < 25 := by
  have h := t.isLt
  have hN : cfg0.N = 25 := N_0
  omega

/-- The node, among all 50000, that is the `n`-th of step `t`. -/
def node (t : Fin cfg0.N) (n : Fin 2000) : Fin 50000 :=
  ⟨t.val * 2000 + n.val, by have := step_lt t; have := n.isLt; omega⟩

/-- The flat row, among all 200000, that is the `r`-th of step `t`. -/
def flat (t : Fin cfg0.N) (r : Fin 8000) : Fin 200000 :=
  ⟨t.val * 8000 + r.val, by have := step_lt t; have := r.isLt; omega⟩

/-! ## Each block as entries of its array

Stated first for an arbitrary array of the window's shape, then read at the array the host left. -/

/-- Window 0's block at step `t`, read off any array of its shape. -/
theorem rows_read_of (c : Dev nD) (t : Fin cfg0.N) (X : Buf (Elt Ideal) ((c : Thread nD τ).loc main_v20)) (r : Fin 8000) (k : Fin 64) :
    (((cfg0.win 0).blk t).view.read (Elt Ideal) X : S8000x64.Idx → EReal) (ix2 r k)
      = (X : S200000x64.Idx → EReal) (ix2 (flat t r) k) := by
  obtain ⟨e0, e1, -⟩ := idx_facts t
  rw [View.read_apply]
  show (X : S200000x64.Idx → EReal) _ = _
  refine congrArg (X : S200000x64.Idx → EReal) (funext fun a => Fin.ext ?_)
  match a with
  | ⟨0, _⟩ => show win0_0.index t (0 : Fin 2) * 8000 + 1 * r.val = t.val * 8000 + r.val; rw [e0]; omega
  | ⟨1, _⟩ => show win0_0.index t (1 : Fin 2) * 64 + 1 * k.val = k.val; rw [e1]; omega

theorem rows_read (c : Dev nD) (t : Fin cfg0.N) (r : Fin 8000) (k : Fin 64) :
    (iblk m c 0 t : S8000x64.Idx → EReal) (ix2 r k) = (V m c main_v20 : S200000x64.Idx → EReal) (ix2 (flat t r) k) := by
  unfold iblk
  exact rows_read_of c t (V m c main_v20) r k

/-- Window 1's block at step `t`, read off any array of its shape. -/
theorem w1_read_of (c : Dev nD) (t : Fin cfg0.N) (X : Buf (Elt Ideal) ((c : Thread nD τ).loc main_v21)) (k : Fin 64) (h : Fin 256) :
    (((cfg0.win 1).blk t).view.read (Elt Ideal) X : S64x256.Idx → EReal) (ix2 k h)
      = (X : S64x256.Idx → EReal) (ix2 k h) := by
  obtain ⟨-, -, e0, e1, -⟩ := idx_facts t
  rw [View.read_apply]
  show (X : S64x256.Idx → EReal) _ = _
  refine congrArg (X : S64x256.Idx → EReal) (funext fun a => Fin.ext ?_)
  match a with
  | ⟨0, _⟩ => show win0_1.index t (0 : Fin 2) * 64 + 1 * k.val = k.val; rw [e0]; omega
  | ⟨1, _⟩ => show win0_1.index t (1 : Fin 2) * 256 + 1 * h.val = h.val; rw [e1]; omega

theorem w1_read (c : Dev nD) (t : Fin cfg0.N) (k : Fin 64) (h : Fin 256) :
    (iblk m c 1 t : S64x256.Idx → EReal) (ix2 k h) = (V m c main_v21 : S64x256.Idx → EReal) (ix2 k h) := by
  unfold iblk
  exact w1_read_of c t (V m c main_v21) k h

/-- Window 2's block at step `t`, read off any array of its shape. -/
theorem b1_read_of (c : Dev nD) (t : Fin cfg0.N) (X : Buf (Elt Ideal) ((c : Thread nD τ).loc main_v23)) (h : Fin 256) :
    (((cfg0.win 2).blk t).view.read (Elt Ideal) X : S1x256.Idx → EReal) (ix2 (0 : Fin 1) h)
      = (X : S1x256.Idx → EReal) (ix2 (0 : Fin 1) h) := by
  obtain ⟨-, -, -, -, e0, e1, -⟩ := idx_facts t
  rw [View.read_apply]
  show (X : S1x256.Idx → EReal) _ = _
  refine congrArg (X : S1x256.Idx → EReal) (funext fun a => Fin.ext ?_)
  match a with
  | ⟨0, _⟩ => show win0_2.index t (0 : Fin 2) * 1 + 1 * 0 = 0; rw [e0]
  | ⟨1, _⟩ => show win0_2.index t (1 : Fin 2) * 256 + 1 * h.val = h.val; rw [e1]; omega

theorem b1_read (c : Dev nD) (t : Fin cfg0.N) (h : Fin 256) :
    (iblk m c 2 t : S1x256.Idx → EReal) (ix2 (0 : Fin 1) h) = (V m c main_v23 : S1x256.Idx → EReal) (ix2 (0 : Fin 1) h) := by
  unfold iblk
  exact b1_read_of c t (V m c main_v23) h

/-- Window 3's block at step `t`, read off any array of its shape. -/
theorem w2_read_of (c : Dev nD) (t : Fin cfg0.N) (X : Buf (Elt Ideal) ((c : Thread nD τ).loc main_v22)) (h : Fin 256) (o : Fin 64) :
    (((cfg0.win 3).blk t).view.read (Elt Ideal) X : S256x64.Idx → EReal) (ix2 h o)
      = (X : S256x64.Idx → EReal) (ix2 h o) := by
  obtain ⟨-, -, -, -, -, -, e0, e1, -⟩ := idx_facts t
  rw [View.read_apply]
  show (X : S256x64.Idx → EReal) _ = _
  refine congrArg (X : S256x64.Idx → EReal) (funext fun a => Fin.ext ?_)
  match a with
  | ⟨0, _⟩ => show win0_3.index t (0 : Fin 2) * 256 + 1 * h.val = h.val; rw [e0]; omega
  | ⟨1, _⟩ => show win0_3.index t (1 : Fin 2) * 64 + 1 * o.val = o.val; rw [e1]; omega

theorem w2_read (c : Dev nD) (t : Fin cfg0.N) (h : Fin 256) (o : Fin 64) :
    (iblk m c 3 t : S256x64.Idx → EReal) (ix2 h o) = (V m c main_v22 : S256x64.Idx → EReal) (ix2 h o) := by
  unfold iblk
  exact w2_read_of c t (V m c main_v22) h o

/-- Window 4's block at step `t`, read off any array of its shape. -/
theorem b2_read_of (c : Dev nD) (t : Fin cfg0.N) (X : Buf (Elt Ideal) ((c : Thread nD τ).loc main_v24)) (o : Fin 64) :
    (((cfg0.win 4).blk t).view.read (Elt Ideal) X : S1x64.Idx → EReal) (ix2 (0 : Fin 1) o)
      = (X : S1x64.Idx → EReal) (ix2 (0 : Fin 1) o) := by
  obtain ⟨-, -, -, -, -, -, -, -, e0, e1, -⟩ := idx_facts t
  rw [View.read_apply]
  show (X : S1x64.Idx → EReal) _ = _
  refine congrArg (X : S1x64.Idx → EReal) (funext fun a => Fin.ext ?_)
  match a with
  | ⟨0, _⟩ => show win0_4.index t (0 : Fin 2) * 1 + 1 * 0 = 0; rw [e0]
  | ⟨1, _⟩ => show win0_4.index t (1 : Fin 2) * 64 + 1 * o.val = o.val; rw [e1]; omega

theorem b2_read (c : Dev nD) (t : Fin cfg0.N) (o : Fin 64) :
    (iblk m c 4 t : S1x64.Idx → EReal) (ix2 (0 : Fin 1) o) = (V m c main_v24 : S1x64.Idx → EReal) (ix2 (0 : Fin 1) o) := by
  unfold iblk
  exact b2_read_of c t (V m c main_v24) o

/-- An element of the result's block at step `t` sits at the same batch and channel, node 2000 t + n. -/
theorem out_emb (t : Fin cfg0.N) (b : Fin 4) (n : Fin 2000) (o : Fin 64) :
    (((cfg0.win 5).blk t).view.emb (ix3 b n o) : S4x50000x64.Idx) = ix3 b (node t n) o := by
  obtain ⟨-, -, -, -, -, -, -, -, -, -, e0, e1, e2⟩ := idx_facts t
  refine funext fun a => Fin.ext ?_
  match a with
  | ⟨0, _⟩ => show win0_5.index t (0 : Fin 3) * 4 + 1 * b.val = b.val; rw [e0]; omega
  | ⟨1, _⟩ => show win0_5.index t (1 : Fin 3) * 2000 + 1 * n.val = t.val * 2000 + n.val; rw [e1]; omega
  | ⟨2, _⟩ => show win0_5.index t (2 : Fin 3) * 64 + 1 * o.val = o.val; rw [e2]; omega

/-! ## Each block's entries from the arguments -/

/-- The step's row of node `n`, batch `b`, at channel `k`: the scatter-add result at node 2000 t + n, column 64 b + k. -/
theorem rows_eq (c : Dev nD) (t : Fin cfg0.N) (n : Fin 2000) (b : Fin 4) (k : Fin 64) :
    (iblk m c 0 t : S8000x64.Idx → EReal) (ix2 (row n b) k)
      = mixed (m ((c : Thread nD τ).loc main_arg0)) (m ((c : Thread nD τ).loc main_arg1)) (m ((c : Thread nD τ).loc main_arg2)) (ix2 (node t n) (col b k)) := by
  refine (rows_read m c t (row n b) k).trans ?_
  refine (congrFun (V_rows m c) (ix2 (flat t (row n b)) k)).trans ?_
  refine (truncf_apply (φ := .f32) (ψ := .bf16) _ bitsLt_bf16_f32 _).trans ?_
  exact shapeCast_apply _ shapeCasts_S50000x256_S200000x64 (ix2 (flat t (row n b)) k) (ix2 (node t n) (col b k)) (by
    rw [Shape.rowMajor_val_two, Shape.rowMajor_val_two]
    show (t.val * 2000 + n.val) * 256 + (b.val * 64 + k.val) = (t.val * 8000 + (n.val * 4 + b.val)) * 64 + k.val
    omega)

theorem w1_eq (c : Dev nD) (t : Fin cfg0.N) (k : Fin 64) (h : Fin 256) :
    (iblk m c 1 t : S64x256.Idx → EReal) (ix2 k h) = ((m ((c : Thread nD τ).loc main_arg3)) : S64x256.Idx → EReal) (ix2 k h) :=
  (w1_read m c t k h).trans ((congrFun (V_w1 m c) (ix2 k h)).trans (truncf_apply (φ := .f32) (ψ := .bf16) _ bitsLt_bf16_f32 _))

theorem b1_eq (c : Dev nD) (t : Fin cfg0.N) (h : Fin 256) :
    (iblk m c 2 t : S1x256.Idx → EReal) (ix2 (0 : Fin 1) h) = ((m ((c : Thread nD τ).loc main_arg4)) : S256.Idx → EReal) (ix1 h) :=
  (b1_read m c t h).trans ((congrFun (V_b1 m c) (ix2 (0 : Fin 1) h)).trans
    (shapeCast_a_1a_apply _ shapeCasts_S256_S1x256 (0 : Fin 1) h))

theorem w2_eq (c : Dev nD) (t : Fin cfg0.N) (h : Fin 256) (o : Fin 64) :
    (iblk m c 3 t : S256x64.Idx → EReal) (ix2 h o) = ((m ((c : Thread nD τ).loc main_arg5)) : S256x64.Idx → EReal) (ix2 h o) :=
  (w2_read m c t h o).trans ((congrFun (V_w2 m c) (ix2 h o)).trans (truncf_apply (φ := .f32) (ψ := .bf16) _ bitsLt_bf16_f32 _))

theorem b2_eq (c : Dev nD) (t : Fin cfg0.N) (o : Fin 64) :
    (iblk m c 4 t : S1x64.Idx → EReal) (ix2 (0 : Fin 1) o) = ((m ((c : Thread nD τ).loc main_arg6)) : S64.Idx → EReal) (ix1 o) :=
  (b2_read m c t o).trans ((congrFun (V_b2 m c) (ix2 (0 : Fin 1) o)).trans
    (shapeCast_a_1a_apply _ shapeCasts_S64_S1x64 (0 : Fin 1) o))

end Cert.KernelIdeal.Blocks

end
-- ==== Proof.MlpArray.lean ====
/-
  The kernel's result array after the run is the perceptron of the specification, applied to the scatter-add result.

  Step t writes back the [4, 2000, 64] block of nodes 2000 t, …, 2000 t + 1999: at (b, n, o) the stored value is the
  two-layer sum over row 4 n + b of the step's rows, and that row holds node 2000 t + n's columns 64 b, …, 64 b + 63 of the
  scatter-add result, so the stored value is `outAt` at batch b, node 2000 t + n, channel o — the block of `out` the
  step's window names. Every index (b, N, o) of the result lies in the block of step N / 2000, so the 25 blocks cover
  the array and the array ends equal to `out`.
-/
import proofs.«101964_j44951127720359_2_alg».proof.Proof.Gen.KernelIdeal.Value
import proofs.«101964_j44951127720359_2_alg».proof.Proof.MlpBlocks

noncomputable section

open scoped BigOperators

namespace Cert.KernelIdeal.Whole

open Cert.KernelIdeal Cert.KernelIdeal.Gen Cert.KernelIdeal.HostValue Cert.KernelIdeal.Rows Cert.KernelIdeal.Blocks Cert.GraphMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the result array should hold: `out` of the scatter-add result and the four parameter arrays as launched. -/
def result (c : Dev nD) : Buf (Elt Ideal) ((c : Thread nD τ).loc main_v25) :=
  out (mixed (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6))

/-- The value a step stores at (b, n, o) is `result` at batch b, node 2000 t + n, channel o. -/
theorem stored_eq (c : Dev nD) (t : Fin cfg0.N) (b : Fin 4) (n : Fin 2000) (o : Fin 64) :
    k0_pay1 (F := Ideal) (iblk m c 0 t) (iblk m c 1 t) (iblk m c 2 t) (iblk m c 3 t) (iblk m c 4 t) (ix3 b n o)
      = (result m c : S4x50000x64.Idx → EReal) (ix3 b (node t n) o) := by
  refine (pay_apply (iblk m c 0 t) (iblk m c 1 t) (iblk m c 2 t) (iblk m c 3 t) (iblk m c 4 t) b n o).trans ?_
  simp only [rows_eq, w1_eq, b1_eq, w2_eq, b2_eq]
  unfold result
  rw [out_ix3]
  unfold Cert.GraphMlp.outAt Cert.GraphMlp.hidden
  generalize mixed (m ((c : Thread nD τ).loc main_arg0)) (m ((c : Thread nD τ).loc main_arg1)) (m ((c : Thread nD τ).loc main_arg2)) = y
  rfl

/-- A stored block `P` whose value at (b, n, o) is an array `R`'s value at batch b, node 2000 t + n, channel o is the
    block of `R` that step `t`'s window names. (Stated for arbitrary `P` and `R`.) -/
theorem block_eq_of (c : Dev nD) (t : Fin cfg0.N) (P : S4x2000x64.Idx → EReal)
    (R : Buf (Elt Ideal) ((c : Thread nD τ).loc main_v25))
    (h : ∀ (b : Fin 4) (n : Fin 2000) (o : Fin 64), P (ix3 b n o) = (R : S4x50000x64.Idx → EReal) (ix3 b (node t n) o)) :
    (cfg0.win 5).cut (grid0.coords t) P = ((cfg0.win 5).blk t).view.read (Elt Ideal) R := by
  funext j
  obtain ⟨b, n, o, rfl⟩ : ∃ (b : Fin 4) (n : Fin 2000) (o : Fin 64), j = ix3 b n o := ⟨j 0, j 1, j 2, eq_ix3 j⟩
  show P (ix3 b n o) = (R : S4x50000x64.Idx → EReal) (((cfg0.win 5).blk t).view.emb (ix3 b n o))
  rw [out_emb]
  exact h b n o

/-- What step `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S8000x64) hz2, View.ld_unit_zero (S := S64x256) hz2, View.ld_unit_zero (S := S1x256) hz2,
    View.ld_unit_zero (S := S256x64) hz2, View.ld_unit_zero (S := S1x64) hz2]
  exact block_eq_of c t _ (result m c) (stored_eq m c t)

/-- An index of the result is in step `t`'s block iff each coordinate is in the block's range on its axis. -/
theorem mem_blk (t : Fin cfg0.N) (i : S4x50000x64.Idx) :
    i ∈ ((cfg0.win 5).blk t).view.set ↔ ∀ a : Fin 3, win0_5.index t a * S4x2000x64.size a ≤ (i a).val
      ∧ (i a).val < win0_5.index t a * S4x2000x64.size a + S4x2000x64.size a := by
  show i ∈ ((View.whole main_v25).slice (win0_5.rect t)).set ↔ _
  rw [View.set_slice_whole, Rect.mem_set_unit]
  exact Iff.rfl

/-- Every index of the result is in the block of the step its node falls in. -/
theorem cover (i : S4x50000x64.Idx) :
    ∃ t : Fin cfg0.N, (cfg0.win 5).flush t = true ∧ i ∈ ((cfg0.win 5).blk t).view.set := by
  have h0 : (i 0).val < 4 := (i 0).isLt
  have h1 : (i 1).val < 50000 := (i 1).isLt
  have h2 : (i 2).val < 64 := (i 2).isLt
  obtain ⟨t, ht⟩ : ∃ t : Fin cfg0.N, t.val = (i 1).val / 2000 :=
    ⟨⟨(i 1).val / 2000, by rw [show cfg0.N = 25 from N_0]; omega⟩, rfl⟩
  obtain ⟨-, -, -, -, -, -, -, -, -, -, e0, e1, e2⟩ := idx_facts t
  refine ⟨t, flush0_5 t, ?_⟩
  rw [mem_blk]
  intro a
  match a with
  | ⟨0, _⟩ =>
    show win0_5.index t (0 : Fin 3) * 4 ≤ (i 0).val ∧ (i 0).val < win0_5.index t (0 : Fin 3) * 4 + 4
    rw [e0]; omega
  | ⟨1, _⟩ =>
    show win0_5.index t (1 : Fin 3) * 2000 ≤ (i 1).val ∧ (i 1).val < win0_5.index t (1 : Fin 3) * 2000 + 2000
    rw [e1, ht]; omega
  | ⟨2, _⟩ =>
    show win0_5.index t (2 : Fin 3) * 64 ≤ (i 2).val ∧ (i 2).val < win0_5.index t (2 : Fin 3) * 64 + 64
    rw [e2]; omega

/-- The result array after the run. -/
theorem final (c : Dev nD) : (dats m 0 c).arrAt 5 cfg0.N = result m c :=
  (dats m 0 c).arrAt_eq_of_cover 5 (result m c) (fun t _ => flushed_eq m c t) cover

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.MixedSame.lean ====
/-
  The two programs build the scatter-add result by the same host operations.

  Both slice the edge indices into rows and columns, wrap negative column indices by the node count 50000, gather the
  transposed and flattened input rows at the columns, scale by the edge values, and scatter-add into a zero [50000, 256]
  array at the rows — the same operations on the same operands, with the same integer words. Each program prints its own
  records of the gather's and the scatter's dimension numbers; the two records hold the same lists. So the kernel's
  term and the reference's stage are equal by their definitions, and neither the gather nor the scatter is opened.
-/
import proofs.«101964_j44951127720359_2_alg».proof.Proof.MlpHost
import proofs.«101964_j44951127720359_2_alg».proof.Proof.Gen.ReferenceIdeal.Read

noncomputable section

namespace Cert.Proof.Bridge

open Idealize.ShloMosaic

/-- The two programs' records of the scatter's dimension numbers are one record. -/
theorem scatterDims_eq :
    Cert.KernelIdeal.scatter_S50000x256_S800000x1_S800000x256_1_0_0_1
      = Cert.ReferenceIdeal.scatter_S50000x256_S800000x1_S800000x256_1_0_0_1 := rfl

/-- The two programs' records of the gather's dimension numbers are one record. -/
theorem gatherDims_eq :
    Cert.KernelIdeal.gather_S50000x256_S800000x1_S800000x256_1_0_n_n_0_1_1256
      = Cert.ReferenceIdeal.gather_S50000x256_S800000x1_S800000x256_1_0_n_n_0_1_1256 := rfl

open Cert.ReferenceIdeal.Read in
/-- The kernel's scatter-add result is the reference's, as functions of the same three arguments. -/
theorem mixed_eq (x0 : (⟨Cert.KernelIdeal.S4x50000x64, .f32⟩ : BufTy).Contents (Elt Ideal))
    (x1 : (⟨Cert.KernelIdeal.S2x800000, .i32⟩ : BufTy).Contents (Elt Ideal))
    (x2 : (⟨Cert.KernelIdeal.S800000, .f32⟩ : BufTy).Contents (Elt Ideal)) :
    Cert.KernelIdeal.HostValue.mixed x0 x1 x2 = val_main_v18 (F := Ideal) x0 x1 x2 := by
  unfold Cert.KernelIdeal.HostValue.mixed val_main_v18 val_main_v17 val_main_v16 val_main_v15 val_main_v14 val_main_v13
    val_main_v12 val_main_v11 val_main_v10 val_main_v9 val_main_v8 val_main_v7 val_main_v6 val_main_v5 val_main_v4
    val_main_v3 val_main_v2 val_main_v1 val_main_v0 val_main_c val_main_c_0 val_main_cst
  rw [scatterDims_eq, gatherDims_eq]

end Cert.Proof.Bridge

end
-- ==== Proof.lean ====
/-
  A graph mixing step followed by a two-layer perceptron: the kernel equals its reference over the extended reals.

  Both programs first mix node features along the edges of a sparse graph on the host — gather the source rows, scale by
  the edge values, scatter-add into the target rows — by the same operations on the same operands, giving one
  [50000, 256] array `y` (row n: node n; columns 64 b, …, 64 b + 63: batch b's channels). Both then compute, for every
  batch b, node n and output channel o,

      Σ_h max (Σ_c y[n, 64 b + c] · W1[c, h] + b1[h]) 0 · W2[h, o] + b2[o].

  The reference does so with two contractions over a [4, 50000, 64] transpose of `y`. The kernel flattens (n, b) to row
  4 n + b of a [200000, 64] array, takes 8000 rows (2000 nodes) per grid step through two products into zero
  accumulators, and un-flattens each step's result into its [4, 2000, 64] block of the output. The two agree index by
  index: the flat row 4 n + b, channel c and the transposed entry (b, n, c) are the same entry of `y`, a product into a
  zero accumulator is the plain sum of products, and a change of float format is the identity on the extended reals.
  Only reindexing of finite sums is used, so the finiteness of the inputs is never needed. `y` itself is never opened:
  it is one and the same term in both programs.

  The modules: MlpSpec (the function above), RefMlp (the reference's result is it), MlpRows (one grid step at an index),
  MlpHost (what the host leaves in the kernel's arrays), MlpBlocks (each window's block as entries of its array),
  MlpArray (the kernel's result array is it), MixedSame (the two programs' `y` are one term).
-/
import proofs.«101964_j44951127720359_2_alg».proof.Defs
import proofs.«101964_j44951127720359_2_alg».proof.Proof.Gen.Kernel
import proofs.«101964_j44951127720359_2_alg».proof.Proof.Gen.Kernel.Skeleton
import proofs.«101964_j44951127720359_2_alg».proof.Proof.Gen.Kernel.Launch
import proofs.«101964_j44951127720359_2_alg».proof.Proof.Gen.Kernel.Points
import proofs.«101964_j44951127720359_2_alg».proof.Proof.Gen.Kernel.Frame
import proofs.«101964_j44951127720359_2_alg».proof.Proof.Gen.KernelIdeal
import proofs.«101964_j44951127720359_2_alg».proof.Proof.Gen.KernelIdeal.Skeleton
import proofs.«101964_j44951127720359_2_alg».proof.Proof.Gen.KernelIdeal.Launch
import proofs.«101964_j44951127720359_2_alg».proof.Proof.Gen.KernelIdeal.Points
import proofs.«101964_j44951127720359_2_alg».proof.Proof.Gen.KernelIdeal.Frame
import proofs.«101964_j44951127720359_2_alg».proof.Proof.Gen.ReferenceIdeal
import proofs.«101964_j44951127720359_2_alg».proof.Proof.Gen.KernelIdeal.Value
import proofs.«101964_j44951127720359_2_alg».proof.Proof.Gen.ReferenceIdeal.Run
import proofs.«101964_j44951127720359_2_alg».proof.Proof.Gen.ReferenceIdeal.Read
import proofs.«101964_j44951127720359_2_alg».proof.Proof.Gen.Pre_finite_inputs
import proofs.«101964_j44951127720359_2_alg».proof.Proof.RefMlp
import proofs.«101964_j44951127720359_2_alg».proof.Proof.MlpArray
import proofs.«101964_j44951127720359_2_alg».proof.Proof.MixedSame
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the seven arguments the kernel's result array ends at the perceptron of its scatter-add
    result, the reference's at the perceptron of its own; the two scatter-add results are one term of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2, ← Cert.Proof.Bridge.mixed_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
